-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x8x64 : Shape := ⟨4, ![2, 4096, 8, 64]⟩
abbrev S2x4096x16x8x64 : Shape := ⟨5, ![2, 4096, 16, 8, 64]⟩
abbrev S_ : Shape := ⟨0, ![]⟩

class Facts : Prop where
  bcast_S_S2x4096x8x64 : S_.BroadcastsInDim S2x4096x8x64 (![] : Fin 0 → Fin S2x4096x8x64.rank)
  reducesTo_S2x4096x8x64_S_d0_1_2_3 : S2x4096x8x64.ReducesTo [0, 1, 2, 3] S_
  h_S_ : 0 < S_.numel
  bcast_S_S2x4096x16x8x64 : S_.BroadcastsInDim S2x4096x16x8x64 (![] : Fin 0 → Fin S2x4096x16x8x64.rank)
  reducesTo_S2x4096x16x8x64_S_d0_1_2_3_4 : S2x4096x16x8x64.ReducesTo [0, 1, 2, 3, 4] S_

variable [Facts]

def fn_part1 {F : FTy → Type} [FloatOps F] (main_v13 : IVec S_ 1) (main_v16 : IVec S2x4096x16x8x64 1) : IVec S_ 1 :=
  let main_c_5 : IVec S_ 1 := constantI S_ 1 1#1
  let main_v17 : IVec S_ 1 := (fun x v => Host.reduce IntOp.andi x v reducesTo_S2x4096x16x8x64_S_d0_1_2_3_4 h_S_) main_v16 main_c_5
  let main_v18 : IVec S_ 1 := andi main_v13 main_v17
  main_v18

def fn {F : FTy → Type} [FloatOps F] (main_arg0 : FVec F S2x4096x8x64 .f32) (main_arg1 : FVec F S2x4096x16x8x64 .f32) (main_arg2 : FVec F S2x4096x16x8x64 .f32) (main_arg3 : FVec F S2x4096x16x8x64 .f32) : IVec S_ 1 :=
  let main_v0 : FVec F S2x4096x8x64 .f32 := Host.absf main_arg0
  let main_cst : FVec F S_ .f32 := constant S_ .f32 0x7F800000#32
  let main_v1 : FVec F S2x4096x8x64 .f32 := broadcastInDim S2x4096x8x64 ![] bcast_S_S2x4096x8x64 main_cst
  let main_v2 : IVec S2x4096x8x64 1 := cmpf .olt main_v0 main_v1
  let main_c : IVec S_ 1 := constantI S_ 1 1#1
  let main_v3 : IVec S_ 1 := (fun x v => Host.reduce IntOp.andi x v reducesTo_S2x4096x8x64_S_d0_1_2_3 h_S_) main_v2 main_c
  let main_v4 : FVec F S2x4096x16x8x64 .f32 := Host.absf main_arg1
  let main_cst_0 : FVec F S_ .f32 := constant S_ .f32 0x7F800000#32
  let main_v5 : FVec F S2x4096x16x8x64 .f32 := broadcastInDim S2x4096x16x8x64 ![] bcast_S_S2x4096x16x8x64 main_cst_0
  let main_v6 : IVec S2x4096x16x8x64 1 := cmpf .olt main_v4 main_v5
  let main_c_1 : IVec S_ 1 := constantI S_ 1 1#1
  let main_v7 : IVec S_ 1 := (fun x v => Host.reduce IntOp.andi x v reducesTo_S2x4096x16x8x64_S_d0_1_2_3_4 h_S_) main_v6 main_c_1
  let main_v8 : IVec S_ 1 := andi main_v3 main_v7
  let main_v9 : FVec F S2x4096x16x8x64 .f32 := Host.absf main_arg2
  let main_cst_2 : FVec F S_ .f32 := constant S_ .f32 0x7F800000#32
  let main_v10 : FVec F S2x4096x16x8x64 .f32 := broadcastInDim S2x4096x16x8x64 ![] bcast_S_S2x4096x16x8x64 main_cst_2
  let main_v11 : IVec S2x4096x16x8x64 1 := cmpf .olt main_v9 main_v10
  let main_c_3 : IVec S_ 1 := constantI S_ 1 1#1
  let main_v12 : IVec S_ 1 := (fun x v => Host.reduce IntOp.andi x v reducesTo_S2x4096x16x8x64_S_d0_1_2_3_4 h_S_) main_v11 main_c_3
  let main_v13 : IVec S_ 1 := andi main_v8 main_v12
  let main_v14 : FVec F S2x4096x16x8x64 .f32 := Host.absf main_arg3
  let main_cst_4 : FVec F S_ .f32 := constant S_ .f32 0x7F800000#32
  let main_v15 : FVec F S2x4096x16x8x64 .f32 := broadcastInDim S2x4096x16x8x64 ![] bcast_S_S2x4096x16x8x64 main_cst_4
  let main_v16 : IVec S2x4096x16x8x64 1 := cmpf .olt main_v14 main_v15
  fn_part1 (F := F) main_v13 main_v16
-- ==== Kernel.lean ====
abbrev S2x4096x8x64 : Shape := ⟨4, ![2, 4096, 8, 64]⟩
abbrev S2x4096x16x8x64 : Shape := ⟨5, ![2, 4096, 16, 8, 64]⟩
abbrev S1x64x8x64 : Shape := ⟨4, ![1, 64, 8, 64]⟩
abbrev S1x64x16x8x64 : Shape := ⟨5, ![1, 64, 16, 8, 64]⟩
abbrev S64x8x64 : Shape := ⟨3, ![64, 8, 64]⟩
abbrev S64x1x8x64 : Shape := ⟨4, ![64, 1, 8, 64]⟩
abbrev S64x16x8x64 : Shape := ⟨4, ![64, 16, 8, 64]⟩

abbrev nBuf : Space → Nat
  | .hbm => 5
  | .vmem => 10
  | .smem => 0
  | _ => 0

abbrev bufTy : (tb : Table) → Fin (tcTables nBuf tb) → BufTy
  | .hbm, ⟨0, _⟩ => ⟨S2x4096x8x64, .f32⟩
  | .hbm, ⟨1, _⟩ => ⟨S2x4096x16x8x64, .f32⟩
  | .hbm, ⟨2, _⟩ => ⟨S2x4096x16x8x64, .f32⟩
  | .hbm, ⟨3, _⟩ => ⟨S2x4096x16x8x64, .f32⟩
  | .hbm, ⟨4, _⟩ => ⟨S2x4096x8x64, .f32⟩
  | .local _ .vmem, ⟨0, _⟩ => ⟨S1x64x8x64, .f32⟩
  | .local _ .vmem, ⟨1, _⟩ => ⟨S1x64x8x64, .f32⟩
  | .local _ .vmem, ⟨2, _⟩ => ⟨S1x64x16x8x64, .f32⟩
  | .local _ .vmem, ⟨3, _⟩ => ⟨S1x64x16x8x64, .f32⟩
  | .local _ .vmem, ⟨4, _⟩ => ⟨S1x64x16x8x64, .f32⟩
  | .local _ .vmem, ⟨5, _⟩ => ⟨S1x64x16x8x64, .f32⟩
  | .local _ .vmem, ⟨6, _⟩ => ⟨S1x64x16x8x64, .f32⟩
  | .local _ .vmem, ⟨7, _⟩ => ⟨S1x64x16x8x64, .f32⟩
  | .local _ .vmem, ⟨8, _⟩ => ⟨S1x64x8x64, .f32⟩
  | .local _ .vmem, ⟨9, _⟩ => ⟨S1x64x8x64, .f32⟩
  | _, _ => ⟨S2x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 64], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x16x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x16x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x16x8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x64x8x64_S1x64x8x64_0_0_0_0 : ∀ a, (![0, 0, 0, 0] : Fin 4 → Nat) a + S1x64x8x64.size a ≤ S1x64x8x64.size a
  h_S1x64x8x64 : 0 < S1x64x8x64.numel
  shapeCasts_S1x64x8x64_S64x8x64 : S1x64x8x64.ShapeCasts S64x8x64
  shapeCasts_S64x8x64_S64x1x8x64 : S64x8x64.ShapeCasts S64x1x8x64
  inb_S1x64x16x8x64_S1x64x16x8x64_0_0_0_0_0 : ∀ a, (![0, 0, 0, 0, 0] : Fin 5 → Nat) a + S1x64x16x8x64.size a ≤ S1x64x16x8x64.size a
  h_S1x64x16x8x64 : 0 < S1x64x16x8x64.numel
  shapeCasts_S1x64x16x8x64_S64x16x8x64 : S1x64x16x8x64.ShapeCasts S64x16x8x64
  broadcasts_S64x1x8x64_S64x16x8x64 : S64x1x8x64.Broadcasts S64x16x8x64
  reduces_S64x16x8x64_S64x8x64 : S64x16x8x64.Reduces [1] S64x8x64
  shapeCasts_S64x8x64_S1x64x8x64 : S64x8x64.ShapeCasts S1x64x8x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x8x64.size a ≤ S2x4096x8x64.size a
  hwx0_0 : ∀ i : grid0.Coords, EltTy.bits .f32 = 32 ∨ (Rect.block (s := S2x4096x8x64) S1x64x8x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x16x8x64.size a ≤ S2x4096x16x8x64.size a
  hwx0_1 : ∀ i : grid0.Coords, EltTy.bits .f32 = 32 ∨ (Rect.block (s := S2x4096x16x8x64) S1x64x16x8x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x16x8x64.size a ≤ S2x4096x16x8x64.size a
  hwx0_2 : ∀ i : grid0.Coords, EltTy.bits .f32 = 32 ∨ (Rect.block (s := S2x4096x16x8x64) S1x64x16x8x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x16x8x64.size a ≤ S2x4096x16x8x64.size a
  hwx0_3 : ∀ i : grid0.Coords, EltTy.bits .f32 = 32 ∨ (Rect.block (s := S2x4096x16x8x64) S1x64x16x8x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x8x64.size a ≤ S2x4096x8x64.size a
  hwx0_4 : ∀ i : grid0.Coords, EltTy.bits .f32 = 32 ∨ (Rect.block (s := S2x4096x8x64) S1x64x8x64.size (cc0_transform_4 i) (hinb0_4 i)).WholeWords (EltTy.packing .f32)

variable [Facts₀]

abbrev win0_0 : Pipeline.Window sig grid0 :=
  Pipeline.Window.ofSpec (Memref.whole main_arg0) S1x64x8x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x16x8x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x16x8x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64x16x8x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64x8x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x4096x8x64 : Shape := ⟨4, ![2, 4096, 8, 64]⟩
abbrev S2x4096x16x8x64 : Shape := ⟨5, ![2, 4096, 16, 8, 64]⟩
abbrev S2x4096x1x8x64 : Shape := ⟨5, ![2, 4096, 1, 8, 64]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2x4096x8x64, .f32⟩
  | .hbm, ⟨1, _⟩ => ⟨S2x4096x16x8x64, .f32⟩
  | .hbm, ⟨2, _⟩ => ⟨S2x4096x16x8x64, .f32⟩
  | .hbm, ⟨3, _⟩ => ⟨S2x4096x16x8x64, .f32⟩
  | .hbm, ⟨4, _⟩ => ⟨S2x4096x1x8x64, .f32⟩
  | .hbm, ⟨5, _⟩ => ⟨S2x4096x16x8x64, .f32⟩
  | .hbm, ⟨6, _⟩ => ⟨S2x4096x16x8x64, .f32⟩
  | .hbm, ⟨7, _⟩ => ⟨S2x4096x16x8x64, .f32⟩
  | .hbm, ⟨8, _⟩ => ⟨S2x4096x16x8x64, .f32⟩
  | .hbm, ⟨9, _⟩ => ⟨S2x4096x16x8x64, .f32⟩
  | .hbm, ⟨10, _⟩ => ⟨S_, .f32⟩
  | .hbm, ⟨11, _⟩ => ⟨S2x4096x16x8x64, .f32⟩
  | .hbm, ⟨12, _⟩ => ⟨S2x4096x16x8x64, .f32⟩
  | .hbm, ⟨13, _⟩ => ⟨S_, .f32⟩
  | .hbm, ⟨14, _⟩ => ⟨S2x4096x8x64, .f32⟩
  | .hbm, ⟨15, _⟩ => ⟨S_, .f32⟩
  | .hbm, ⟨16, _⟩ => ⟨S2x4096x8x64, .f32⟩
  | .hbm, ⟨17, _⟩ => ⟨S2x4096x8x64, .f32⟩
  | .hbm, ⟨18, _⟩ => ⟨S2x4096x1x8x64, .f32⟩
  | .hbm, ⟨19, _⟩ => ⟨S2x4096x16x8x64, .f32⟩
  | .hbm, ⟨20, _⟩ => ⟨S2x4096x16x8x64, .f32⟩
  | .hbm, ⟨21, _⟩ => ⟨S2x4096x16x8x64, .f32⟩
  | .hbm, ⟨22, _⟩ => ⟨S_, .f32⟩
  | .hbm, ⟨23, _⟩ => ⟨S2x4096x8x64, .f32⟩
  | .hbm, ⟨24, _⟩ => ⟨S2x4096x1x8x64, .f32⟩
  | .hbm, ⟨25, _⟩ => ⟨S2x4096x16x8x64, .f32⟩
  | .hbm, ⟨26, _⟩ => ⟨S2x4096x16x8x64, .f32⟩
  | .hbm, ⟨27, _⟩ => ⟨S2x4096x16x8x64, .f32⟩
  | .hbm, ⟨28, _⟩ => ⟨S_, .f32⟩
  | .hbm, ⟨29, _⟩ => ⟨S2x4096x8x64, .f32⟩
  | _, _ => ⟨S2x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S2x4096x8x64_S2x4096x1x8x64_0_1_3_4 : S2x4096x8x64.BroadcastsInDim S2x4096x1x8x64 (![0, 1, 3, 4] : Fin 4 → Fin S2x4096x1x8x64.rank)
  bcast_S2x4096x1x8x64_S2x4096x16x8x64_0_1_2_3_4 : S2x4096x1x8x64.BroadcastsInDim S2x4096x16x8x64 (![0, 1, 2, 3, 4] : Fin 5 → Fin S2x4096x16x8x64.rank)
  bcast_S_S2x4096x16x8x64 : S_.BroadcastsInDim S2x4096x16x8x64 (![] : Fin 0 → Fin S2x4096x16x8x64.rank)
  reducesTo_S2x4096x16x8x64_S2x4096x8x64_d2 : S2x4096x16x8x64.ReducesTo [2] S2x4096x8x64
  h_S_ : 0 < S_.numel
  bcast_S_S2x4096x8x64 : S_.BroadcastsInDim S2x4096x8x64 (![] : Fin 0 → Fin S2x4096x8x64.rank)

variable [Facts₀]

class Facts : Prop extends Facts₀ where

variable [Facts]
-- ==== Proof.LibKeepdimsAxis1.lean ====
/-
  Reading, at an index, the layout operations and reductions of a value of shape [m, n, a, b] that is reduced over its
  axis 1 (extent n) with the reduced axis kept as a unit axis and broadcast back — the shape of a softmax over the second
  axis of a rank-4 block:

  * a [1, m, n, a, b] array cast to [m, n, a, b] reads the operand at (0, k, l, i, j);
  * an [m, a, b] array cast to [m, 1, a, b] reads, at (k, u, i, j), the operand at (k, i, j);
  * an [m, 1, a, b] array broadcast to [m, n, a, b] reads, at (k, l, i, j), the operand at (k, 0, i, j);
  * so the cast followed by the broadcast reads, at (k, l, i, j), the operand at (k, i, j);
  * the index that a reduction over axis 1 inserts coordinate l into, at the reduced index (k, i, j), is (k, l, i, j);
  * hence, on the extended reals, a sum over axis 1 read at (k, i, j) is the sum over l of the source at (k, l, i, j),
    and a maximum over axis 1 is the fold of max, from the accumulator's value, of the source at (k, l, i, j).

  and, for the host's side of the same softmax on the whole [A, B, N, C, D] array (reduced over its axis 2):

  * the index a reduction over axis 2 inserts l into, at (b, n, h, d), is (b, n, l, h, d), and the host's maximum over
    that axis is the fold of max, from its initial value, of the array at (b, n, l, h, d).

  All extents are variables; the ranks and the reduced axis are literal.
-/
import Idealize.ShloMosaic.Lib.ValueIdx
import Idealize.ShloMosaic.Lib.Pipeline.Value
import Idealize.ShloMosaic.PureOps.Ideal.Laws

noncomputable section

open scoped BigOperators

namespace Cert.LibKeepdimsAxis1

open Idealize.ShloMosaic Idealize.ShloMosaic.ValueIdx

variable {α : Type}

/-- A [1, m, n, a, b] array cast to [m, n, a, b] reads, at (k, l, i, j), the operand at (0, k, l, i, j): both positions
    in row-major order are ((k·n + l)·a + i)·b + j. -/
theorem shapeCast_dropLead5_apply {m n a b : ℕ} (x : (⟨5, ![1, m, n, a, b]⟩ : Shape).Idx → α)
    (h : (⟨5, ![1, m, n, a, b]⟩ : Shape).ShapeCasts ⟨4, ![m, n, a, b]⟩) (k : Fin m) (l : Fin n) (i : Fin a) (j : Fin b) :
    shapeCast ⟨4, ![m, n, a, b]⟩ x h (ix4 k l i j) = x (ix5 (0 : Fin 1) k l i j) :=
  shapeCast_apply x h _ _ (by
    rw [Shape.rowMajor_val_five, Shape.rowMajor_val_four]
    show (((0 * m + k.val) * n + l.val) * a + i.val) * b + j.val = ((k.val * n + l.val) * a + i.val) * b + j.val
    rw [Nat.zero_mul, Nat.zero_add])

/-- An [m, a, b] array cast to [m, 1, a, b] reads, at (k, u, i, j), the operand at (k, i, j): the unit axis adds
    nothing to the row-major position. -/
theorem shapeCast_unitAxis1_apply {m a b : ℕ} (x : (⟨3, ![m, a, b]⟩ : Shape).Idx → α)
    (h : (⟨3, ![m, a, b]⟩ : Shape).ShapeCasts ⟨4, ![m, 1, a, b]⟩) (k : Fin m) (u : Fin 1) (i : Fin a) (j : Fin b) :
    shapeCast ⟨4, ![m, 1, a, b]⟩ x h (ix4 k u i j) = x (ix3 k i j) :=
  shapeCast_apply x h _ _ (by
    have hu : u.val = 0 := by omega
    rw [Shape.rowMajor_val_four, Shape.rowMajor_val_three]
    show (k.val * a + i.val) * b + j.val = ((k.val * 1 + u.val) * a + i.val) * b + j.val
    rw [hu, Nat.mul_one, Nat.add_zero])

/-- An [m, 1, a, b] array broadcast to [m, n, a, b] reads, at (k, l, i, j), the operand at (k, 0, i, j): a broadcast reads
    a unit axis of the operand at 0 and every other axis at the result's coordinate (where another extent happens to be
    1 that coordinate is 0 as well, so the statement needs no side condition on the extents). -/
theorem broadcastTo_unitAxis1_apply {m n a b : ℕ} (x : (⟨4, ![m, 1, a, b]⟩ : Shape).Idx → α)
    (h : (⟨4, ![m, 1, a, b]⟩ : Shape).Broadcasts ⟨4, ![m, n, a, b]⟩) (k : Fin m) (l : Fin n) (i : Fin a) (j : Fin b) :
    broadcastTo ⟨4, ![m, n, a, b]⟩ x h (ix4 k l i j) = x (ix4 k (0 : Fin 1) i j) :=
  broadcastTo_apply x h _ _ (fun c => match c with
    | ⟨0, _⟩ => by
        show k.val = if m = 1 then 0 else k.val
        split
        · omega
        · rfl
    | ⟨1, _⟩ => by
        show (0 : ℕ) = if (1 : ℕ) = 1 then 0 else l.val
        rw [if_pos rfl]
    | ⟨2, _⟩ => by
        show i.val = if a = 1 then 0 else i.val
        split
        · omega
        · rfl
    | ⟨3, _⟩ => by
        show j.val = if b = 1 then 0 else j.val
        split
        · omega
        · rfl)

/-- A value per (k, i, j) given a unit axis 1 and broadcast along it reads, at (k, l, i, j), that value at (k, i, j):
    the reduced quantity of a keepdims reduction, set beside every entry it was reduced from. -/
theorem keepdims_apply {m n a b : ℕ} (x : (⟨3, ![m, a, b]⟩ : Shape).Idx → α)
    (hc : (⟨3, ![m, a, b]⟩ : Shape).ShapeCasts ⟨4, ![m, 1, a, b]⟩)
    (hb : (⟨4, ![m, 1, a, b]⟩ : Shape).Broadcasts ⟨4, ![m, n, a, b]⟩) (k : Fin m) (l : Fin n) (i : Fin a) (j : Fin b) :
    broadcastTo ⟨4, ![m, n, a, b]⟩ (shapeCast ⟨4, ![m, 1, a, b]⟩ x hc) hb (ix4 k l i j) = x (ix3 k i j) :=
  (broadcastTo_unitAxis1_apply _ hb k l i j).trans (shapeCast_unitAxis1_apply x hc k 0 i j)

/-- The reduced index (k, i, j) of a reduction over axis 1 with the coordinate l inserted on that axis is (k, l, i, j). -/
theorem lift_axis1 {m n a b : ℕ} (h : (⟨4, ![m, n, a, b]⟩ : Shape).Reduces [(1 : Fin 4)] ⟨3, ![m, a, b]⟩)
    (k : Fin m) (l : Fin n) (i : Fin a) (j : Fin b) :
    h.lift (ix3 k i j) l = ix4 k l i j := by
  funext c
  apply Fin.ext
  match c with
  | ⟨0, _⟩ => rfl
  | ⟨1, _⟩ => rfl
  | ⟨2, _⟩ => rfl
  | ⟨3, _⟩ => rfl

/-- On the extended reals a sum over axis 1 of an [m, n, a, b] vector, read at (k, i, j), is the sum over l of the
    vector at (k, l, i, j). -/
theorem sumAxis1_apply {φ : FTy} {m n a b : ℕ} (src : FVec Ideal ⟨4, ![m, n, a, b]⟩ φ) (acc : BitVec φ.bits)
    (h : (⟨4, ![m, n, a, b]⟩ : Shape).Reduces [(1 : Fin 4)] ⟨3, ![m, a, b]⟩) (hφ : FKind.Formats φ)
    (hacc : acc = FKind.add.neutral φ hφ) (k : Fin m) (i : Fin a) (j : Fin b) :
    multiReduction .add [(1 : Fin 4)] ⟨3, ![m, a, b]⟩ src acc h hφ hacc (ix3 k i j) = ∑ l : Fin n, src (ix4 k l i j) :=
  (Ideal.multiReduction_add_single src acc h hφ hacc (ix3 k i j)).trans
    (Finset.sum_congr rfl fun l _ => congrArg src (lift_axis1 h k l i j))

/-- On the extended reals a maximum over axis 1 of an [m, n, a, b] vector, read at (k, i, j), is the fold of max, from
    the accumulator's value, of the vector at (k, l, i, j) over l. -/
theorem maxAxis1_apply {φ : FTy} {m n a b : ℕ} (src : FVec Ideal ⟨4, ![m, n, a, b]⟩ φ) (acc : BitVec φ.bits)
    (h : (⟨4, ![m, n, a, b]⟩ : Shape).Reduces [(1 : Fin 4)] ⟨3, ![m, a, b]⟩) (hφ : FKind.Formats φ)
    (hacc : acc = FKind.maximumf.neutral φ hφ) (k : Fin m) (i : Fin a) (j : Fin b) :
    multiReduction .maximumf [(1 : Fin 4)] ⟨3, ![m, a, b]⟩ src acc h hφ hacc (ix3 k i j)
      = (Finset.univ : Finset (Fin n)).fold max (Ideal.ofBits φ acc) (fun l => src (ix4 k l i j)) :=
  (Ideal.multiReduction_maximumf_single src acc h hφ hacc (ix3 k i j)).trans
    (congrArg ((Finset.univ : Finset (Fin n)).fold max (Ideal.ofBits φ acc))
      (funext fun l => congrArg src (lift_axis1 h k l i j)))

/-! ## The host's reduction over axis 2 of a rank-5 array -/

/-- The reduced index (b, n, h, d) of a reduction over axis 2 of an [A, B, N, C, D] array with the coordinate l inserted
    on that axis is (b, n, l, h, d). -/
theorem lift_axis2 {A B N C D : ℕ} (hr : (⟨5, ![A, B, N, C, D]⟩ : Shape).Reduces [(2 : Fin 5)] ⟨4, ![A, B, C, D]⟩)
    (b : Fin A) (n : Fin B) (l : Fin N) (h : Fin C) (d : Fin D) :
    hr.lift (ix4 b n h d) l = ix5 b n l h d := by
  funext c
  apply Fin.ext
  match c with
  | ⟨0, _⟩ => rfl
  | ⟨1, _⟩ => rfl
  | ⟨2, _⟩ => rfl
  | ⟨3, _⟩ => rfl
  | ⟨4, _⟩ => rfl

/-- On the extended reals the host's maximum over axis 2 of an [A, B, N, C, D] array, read at (b, n, h, d), is the fold
    of max, from the initial value, of the array at (b, n, l, h, d) over l. -/
theorem hostMaxAxis2_apply {φ : FTy} {A B N C D : ℕ} {u : Shape} (x : (⟨5, ![A, B, N, C, D]⟩ : Shape).Idx → Ideal φ)
    (init : u.Idx → Ideal φ) (h' : (⟨5, ![A, B, N, C, D]⟩ : Shape).ReducesTo [(2 : Fin 5)] ⟨4, ![A, B, C, D]⟩)
    (hr : (⟨5, ![A, B, N, C, D]⟩ : Shape).Reduces [(2 : Fin 5)] ⟨4, ![A, B, C, D]⟩) (hu : 0 < u.numel)
    (b : Fin A) (n : Fin B) (h : Fin C) (d : Fin D) :
    Host.reduce (FloatOps.maximumf (F := Ideal) (φ := φ)) x init h' hu (ix4 b n h d)
      = (Finset.univ : Finset (Fin N)).fold max (init (Shape.Idx.first hu)) (fun l => x (ix5 b n l h d)) :=
  (Host.reduce_eq_fold_single (FloatOps.maximumf (F := Ideal) (φ := φ)) x init h' hr hu (ix4 b n h d)).trans
    (congrArg ((Finset.univ : Finset (Fin N)).fold max (init (Shape.Idx.first hu)))
      (funext fun l => congrArg x (lift_axis2 hr b n l h d)))

end Cert.LibKeepdimsAxis1

end
-- ==== Proof.NeighbourAttention.lean ====
/-
  What both programs compute, entry by entry, on the extended reals.

  Fix a batch b, a token n, a head h and a channel d, and write q for the query's entry there and k_l, g_l, v_l
  (l = 0 … 15) for the entries of the key, geometry and value arrays at the token's l-th neighbour. The score of
  neighbour l is s_l = (q·k_l + q·g_l) · (1/8) — the product with the geometry term is NOT factored, the sum is taken
  as written —, the weights are a softmax over the sixteen neighbours computed the stable way,

      M = max_l s_l   (a fold of max started from the word of −∞),
      e_l = exp (s_l − M),   Z = Σ_l e_l,

  and the entry of the result is  Σ_l (e_l / Z) · v_l.  Nothing here depends on an array's extents: the definitions
  take the scalar q and the three families k, g, v : Fin 16 → EReal; `attend` applies them at every index of a
  [A, B, C, D] query against [A, B, 16, C, D] neighbour arrays.

  The literals are kept as the words the programs carry (0x3E000000 is 1/8, 0xFF800000 is −∞): both programs hold the same
  words, so they are never evaluated.
-/
import Idealize.ShloMosaic.PureOps.Ideal
import Idealize.ShloMosaic.Lib.ValueIdx

noncomputable section

open scoped BigOperators

namespace Cert.NeighbourAttention

open Idealize.ShloMosaic Idealize.ShloMosaic.ValueIdx

/-- The score of neighbour `l`: `(q·k_l + q·g_l) · (1/8)`. -/
def score (q : EReal) (k g : Fin 16 → EReal) (l : Fin 16) : EReal :=
  (q * k l + q * g l) * Ideal.ofBits .f32 0x3E000000#32

/-- The largest of the sixteen scores: the fold of `max` from the word of −∞. -/
def peak (q : EReal) (k g : Fin 16 → EReal) : EReal :=
  (Finset.univ : Finset (Fin 16)).fold max (Ideal.ofBits .f32 0xFF800000#32) (score q k g)

/-- The unnormalised weight of neighbour `l`: `exp (s_l − M)`. -/
def weight (q : EReal) (k g : Fin 16 → EReal) (l : Fin 16) : EReal :=
  Ideal.exp (score q k g l - peak q k g)

/-- The normaliser: the sum of the sixteen weights. -/
def mass (q : EReal) (k g : Fin 16 → EReal) : EReal :=
  ∑ l : Fin 16, weight q k g l

/-- One entry of the result: the values of the sixteen neighbours mixed by the normalised weights. -/
def mix (q : EReal) (k g v : Fin 16 → EReal) : EReal :=
  ∑ l : Fin 16, Ideal.div (weight q k g l) (mass q k g) * v l

/-- A fold of `max` is at least the value it starts from, so taking the maximum with that value again changes nothing. -/
theorem max_start_fold {ι : Type} (s : Finset ι) (z : EReal) (f : ι → EReal) :
    max z (s.fold max z f) = s.fold max z f :=
  max_eq_right ((Finset.le_fold_max z).2 (Or.inl le_rfl))

/-- The index of neighbour `l` of the entry at `i`: `(i₀, i₁, l, i₂, i₃)`. -/
abbrev nbr {A B C D : ℕ} (i : (⟨4, ![A, B, C, D]⟩ : Shape).Idx) (l : Fin 16) : (⟨5, ![A, B, 16, C, D]⟩ : Shape).Idx :=
  fun c => match c with
  | ⟨0, _⟩ => ⟨(i 0).val, (i 0).isLt⟩
  | ⟨1, _⟩ => ⟨(i 1).val, (i 1).isLt⟩
  | ⟨2, _⟩ => l
  | ⟨3, _⟩ => ⟨(i 2).val, (i 2).isLt⟩
  | ⟨4, _⟩ => ⟨(i 3).val, (i 3).isLt⟩

/-- The whole result array as one function of the four argument arrays (query, keys, values, geometry — the order of the
    programs' arguments), index by index. -/
def attend {A B C D : ℕ} (q : (⟨4, ![A, B, C, D]⟩ : Shape).Idx → EReal)
    (k v g : (⟨5, ![A, B, 16, C, D]⟩ : Shape).Idx → EReal) : (⟨4, ![A, B, C, D]⟩ : Shape).Idx → EReal :=
  fun i => mix (q i) (fun l => k (nbr i l)) (fun l => g (nbr i l)) (fun l => v (nbr i l))

/-- At an index given by its coordinates the neighbour's index is the coordinates with `l` inserted. -/
theorem nbr_ix4 {A B C D : ℕ} (b : Fin A) (n : Fin B) (h : Fin C) (d : Fin D) (l : Fin 16) :
    nbr (ix4 b n h d) l = ix5 b n l h d := by
  funext c
  match c with
  | ⟨0, _⟩ => rfl
  | ⟨1, _⟩ => rfl
  | ⟨2, _⟩ => rfl
  | ⟨3, _⟩ => rfl
  | ⟨4, _⟩ => rfl

/-- `attend` at an index given by its coordinates. -/
theorem attend_ix4 {A B C D : ℕ} (q : (⟨4, ![A, B, C, D]⟩ : Shape).Idx → EReal)
    (k v g : (⟨5, ![A, B, 16, C, D]⟩ : Shape).Idx → EReal) (b : Fin A) (n : Fin B) (h : Fin C) (d : Fin D) :
    attend q k v g (ix4 b n h d)
      = mix (q (ix4 b n h d)) (fun l => k (ix5 b n l h d)) (fun l => g (ix5 b n l h d)) (fun l => v (ix5 b n l h d)) := by
  unfold attend
  simp only [nbr_ix4]

end Cert.NeighbourAttention

end
-- ==== Proof.BlockValue.lean ====
/-
  One block of the kernel, entry by entry, is the specification.

  At a grid point the kernel holds a [1, 64, 8, 64] block of the query and [1, 64, 16, 8, 64] blocks of the keys, the
  geometry and the values (64 tokens, their 16 neighbours, 8 heads, 64 channels). It drops the blocks' leading unit axis,
  sets the query beside each neighbour (a unit axis 1, broadcast to the 16 neighbours), and computes on [64, 16, 8, 64]
  vectors: the scores; their maximum over axis 1, kept as a unit axis and broadcast back; the exponentials of the
  differences; their sum over axis 1, kept and broadcast back; the quotients times the values; the sum over axis 1.
  The stages are named here as vectors of the loaded blocks, and each is read at an index given by its coordinates
  (r, l, h, d) or (r, h, d):

      `scores`  is  `score`,   `peaks`  is  `peak`,   `weights`  is  `weight`,   `masses`  is  `mass`,   `mixed`  is  `mix`

  of the blocks' entries at token r, head h, channel d and its sixteen neighbours. The block the kernel stores (the
  generated `E4` of the loads) is `mixed` read at the block index without its leading coordinate.
-/
import proofs.«143512_j37855841747280_2_alg».proof.Proof.Gen.KernelIdeal.Value
import proofs.«143512_j37855841747280_2_alg».proof.Proof.LibKeepdimsAxis1
import proofs.«143512_j37855841747280_2_alg».proof.Proof.NeighbourAttention
import Idealize.ShloMosaic.Lib.ValueIdx
import Idealize.ShloMosaic.Lib.ValueLayout

noncomputable section

open scoped BigOperators

namespace Cert.KernelIdeal.BlockValue

open Cert.KernelIdeal Cert.KernelIdeal.Gen
open Idealize.ShloMosaic Idealize.ShloMosaic.ValueIdx Cert.NeighbourAttention Cert.LibKeepdimsAxis1

variable (P0 : Vec Ideal S1x64x8x64 .f32) (P1 P2 P3 : Vec Ideal S1x64x16x8x64 .f32)
variable (r : Fin 64) (h : Fin 8) (d : Fin 64)

/-- The query block set beside each of the sixteen neighbours. -/
def queries : FVec Ideal S64x16x8x64 .f32 :=
  broadcastTo S64x16x8x64 (shapeCast S64x1x8x64 (shapeCast S64x8x64 P0 shapeCasts_S1x64x8x64_S64x8x64) shapeCasts_S64x8x64_S64x1x8x64) broadcasts_S64x1x8x64_S64x16x8x64

/-- The scores of the block: query times key plus query times geometry, times 1/8. -/
def scores : FVec Ideal S64x16x8x64 .f32 :=
  mulf (addf (mulf (queries P0) (shapeCast S64x16x8x64 P1 shapeCasts_S1x64x16x8x64_S64x16x8x64))
      (mulf (queries P0) (shapeCast S64x16x8x64 P2 shapeCasts_S1x64x16x8x64_S64x16x8x64)))
    (broadcast S64x16x8x64 (Scalar.ofBits .f32 0x3E000000#32))

/-- Their maximum over the neighbours. -/
def peaks : FVec Ideal S64x8x64 .f32 :=
  multiReduction .maximumf [1] S64x8x64 (scores P0 P1 P2) 0xFF800000#32 reduces_S64x16x8x64_S64x8x64 (.inl rfl) rfl

/-- The exponentials of the scores less their maximum. -/
def weights : FVec Ideal S64x16x8x64 .f32 :=
  exp (subf (scores P0 P1 P2)
    (broadcastTo S64x16x8x64 (shapeCast S64x1x8x64 (peaks P0 P1 P2) shapeCasts_S64x8x64_S64x1x8x64) broadcasts_S64x1x8x64_S64x16x8x64))

/-- Their sum over the neighbours. -/
def masses : FVec Ideal S64x8x64 .f32 :=
  multiReduction .add [1] S64x8x64 (weights P0 P1 P2) 0x00000000#32 reduces_S64x16x8x64_S64x8x64 (.inl rfl) rfl

/-- The values mixed by the normalised weights. -/
def mixed : FVec Ideal S64x8x64 .f32 :=
  multiReduction .add [1] S64x8x64
    (mulf (divf (weights P0 P1 P2)
        (broadcastTo S64x16x8x64 (shapeCast S64x1x8x64 (masses P0 P1 P2) shapeCasts_S64x8x64_S64x1x8x64) broadcasts_S64x1x8x64_S64x16x8x64))
      (shapeCast S64x16x8x64 P3 shapeCasts_S1x64x16x8x64_S64x16x8x64))
    0x00000000#32 reduces_S64x16x8x64_S64x8x64 (.inl rfl) rfl

/-- The block the kernel stores is `mixed` at the block index less its leading coordinate: the stages above are the
    stored term's own subterms, named. -/
theorem stored_eq_mixed (y : S1x64x8x64.Idx) :
    Cert.KernelIdeal.Value.E4 (F := Ideal) P0 P1 P2 P3 y = mixed P0 P1 P2 P3 (Cert.KernelIdeal.Value.ix4_0 y) := rfl

/-- The query beside neighbour `l` of token `r` is the query block's entry at the token. -/
theorem query_at (l : Fin 16) : queries P0 (ix4 r l h d) = P0 (ix4 (0 : Fin 1) r h d) := by
  unfold queries
  exact (keepdims_apply _ shapeCasts_S64x8x64_S64x1x8x64 broadcasts_S64x1x8x64_S64x16x8x64 r l h d).trans
    (shapeCast_1abc_abc_apply P0 shapeCasts_S1x64x8x64_S64x8x64 r h d)

/-- `scores` at (r, l, h, d) is the score of neighbour `l`. -/
theorem score_at (l : Fin 16) :
    scores P0 P1 P2 (ix4 r l h d)
      = score (P0 (ix4 (0 : Fin 1) r h d)) (fun l => P1 (ix5 (0 : Fin 1) r l h d)) (fun l => P2 (ix5 (0 : Fin 1) r l h d)) l := by
  unfold scores
  rw [mulf_apply, addf_apply, mulf_apply, mulf_apply, query_at,
    shapeCast_dropLead5_apply P1 shapeCasts_S1x64x16x8x64_S64x16x8x64 r l h d,
    shapeCast_dropLead5_apply P2 shapeCasts_S1x64x16x8x64_S64x16x8x64 r l h d]
  rfl

/-- `peaks` at (r, h, d) is the largest of the sixteen scores. -/
theorem peak_at :
    peaks P0 P1 P2 (ix3 r h d)
      = peak (P0 (ix4 (0 : Fin 1) r h d)) (fun l => P1 (ix5 (0 : Fin 1) r l h d)) (fun l => P2 (ix5 (0 : Fin 1) r l h d)) := by
  unfold peaks peak
  refine (maxAxis1_apply (scores P0 P1 P2) 0xFF800000#32 reduces_S64x16x8x64_S64x8x64 (.inl rfl) rfl r h d).trans ?_
  exact congrArg (fun f => (Finset.univ : Finset (Fin 16)).fold max (Ideal.ofBits .f32 0xFF800000#32) f)
    (funext fun l => score_at P0 P1 P2 r h d l)

/-- `weights` at (r, l, h, d) is the weight of neighbour `l`. -/
theorem weight_at (l : Fin 16) :
    weights P0 P1 P2 (ix4 r l h d)
      = weight (P0 (ix4 (0 : Fin 1) r h d)) (fun l => P1 (ix5 (0 : Fin 1) r l h d)) (fun l => P2 (ix5 (0 : Fin 1) r l h d)) l := by
  unfold weights weight
  show Ideal.exp (scores P0 P1 P2 (ix4 r l h d)
    - broadcastTo S64x16x8x64 (shapeCast S64x1x8x64 (peaks P0 P1 P2) shapeCasts_S64x8x64_S64x1x8x64) broadcasts_S64x1x8x64_S64x16x8x64 (ix4 r l h d)) = _
  rw [keepdims_apply (peaks P0 P1 P2) shapeCasts_S64x8x64_S64x1x8x64 broadcasts_S64x1x8x64_S64x16x8x64 r l h d, peak_at, score_at]

/-- `masses` at (r, h, d) is the sum of the sixteen weights. -/
theorem mass_at :
    masses P0 P1 P2 (ix3 r h d)
      = mass (P0 (ix4 (0 : Fin 1) r h d)) (fun l => P1 (ix5 (0 : Fin 1) r l h d)) (fun l => P2 (ix5 (0 : Fin 1) r l h d)) := by
  unfold masses mass
  refine (sumAxis1_apply (weights P0 P1 P2) 0x00000000#32 reduces_S64x16x8x64_S64x8x64 (.inl rfl) rfl r h d).trans ?_
  exact Finset.sum_congr rfl fun l _ => weight_at P0 P1 P2 r h d l

/-- `mixed` at (r, h, d) is the mix of the sixteen neighbours' values. -/
theorem mix_at :
    mixed P0 P1 P2 P3 (ix3 r h d)
      = mix (P0 (ix4 (0 : Fin 1) r h d)) (fun l => P1 (ix5 (0 : Fin 1) r l h d)) (fun l => P2 (ix5 (0 : Fin 1) r l h d))
          (fun l => P3 (ix5 (0 : Fin 1) r l h d)) := by
  unfold mixed mix
  refine (sumAxis1_apply _ 0x00000000#32 reduces_S64x16x8x64_S64x8x64 (.inl rfl) rfl r h d).trans ?_
  refine Finset.sum_congr rfl fun l _ => ?_
  show Ideal.div (weights P0 P1 P2 (ix4 r l h d))
      (broadcastTo S64x16x8x64 (shapeCast S64x1x8x64 (masses P0 P1 P2) shapeCasts_S64x8x64_S64x1x8x64) broadcasts_S64x1x8x64_S64x16x8x64 (ix4 r l h d))
    * shapeCast S64x16x8x64 P3 shapeCasts_S1x64x16x8x64_S64x16x8x64 (ix4 r l h d) = _
  rw [keepdims_apply (masses P0 P1 P2) shapeCasts_S64x8x64_S64x1x8x64 broadcasts_S64x1x8x64_S64x16x8x64 r l h d, mass_at, weight_at,
    shapeCast_dropLead5_apply P3 shapeCasts_S1x64x16x8x64_S64x16x8x64 r l h d]

/-- THE STORED BLOCK at (u, r, h, d): the mix, by the block's own softmax over the sixteen neighbours, of the value
    block's entries at the token's neighbours. -/
theorem stored_at (u : Fin 1) :
    Cert.KernelIdeal.Value.E4 (F := Ideal) P0 P1 P2 P3 (ix4 u r h d)
      = mix (P0 (ix4 u r h d)) (fun l => P1 (ix5 u r l h d)) (fun l => P2 (ix5 u r l h d)) (fun l => P3 (ix5 u r l h d)) := by
  obtain rfl : u = 0 := Subsingleton.elim _ _
  rw [stored_eq_mixed]
  have e : Cert.KernelIdeal.Value.ix4_0 (ix4 (0 : Fin 1) r h d) = ix3 r h d :=
    funext fun c => match c with | ⟨0, _⟩ => rfl | ⟨1, _⟩ => rfl | ⟨2, _⟩ => rfl
  rw [e]
  exact mix_at P0 P1 P2 P3 r h d

end Cert.KernelIdeal.BlockValue

end
-- ==== Proof.ArrayValue.lean ====
/-
  From the blocks to the whole array.

  The grid has 2 × 64 points; at point (b, j) every window holds the block of its array at batch b and tokens
  64·j … 64·j + 63 (all neighbours, heads and channels), so the four input blocks and the output block sit over the same
  tokens. Hence a block's loads are the arguments read through that placement, the stored block is `attend` of the
  arguments read through it (the block theorem, stated first over variables), the 128 output blocks tile the result
  array, and the array the run leaves is `attend` of the four argument arrays.
-/
import proofs.«143512_j37855841747280_2_alg».proof.Proof.Gen.KernelIdeal.Value
import proofs.«143512_j37855841747280_2_alg».proof.Proof.BlockValue
import proofs.«143512_j37855841747280_2_alg».proof.Proof.NeighbourAttention
import Idealize.ShloMosaic.Lib.Pipeline.Value
import Idealize.ShloMosaic.Lib.ValueIdx

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.NeighbourAttention

/-! ## A block whose loads are restrictions of four arrays -/

/-- If the four loaded blocks are four arrays read through placements `e4` (rank 4) and `e5` (rank 5) that agree —
    the rank-5 placement of neighbour `l` of a block entry is neighbour `l` of the entry's rank-4 placement —, the
    stored block is `attend` of the arrays read through `e4`. (The stored term takes the geometry block before the
    value block; `attend` takes the arrays in the programs' argument order.) -/
theorem block_is_attend (Q : S2x4096x8x64.Idx → EReal) (K W G : S2x4096x16x8x64.Idx → EReal)
    (x0 : Vec Ideal S1x64x8x64 .f32) (x1 x2 x3 : Vec Ideal S1x64x16x8x64 .f32)
    (e4 : S1x64x8x64.Idx → S2x4096x8x64.Idx) (e5 : S1x64x16x8x64.Idx → S2x4096x16x8x64.Idx)
    (hx0 : ∀ y, x0 y = Q (e4 y)) (hx1 : ∀ z, x1 z = K (e5 z)) (hx2 : ∀ z, x2 z = W (e5 z)) (hx3 : ∀ z, x3 z = G (e5 z))
    (he : ∀ (u : Fin 1) (r : Fin 64) (h : Fin 8) (d : Fin 64) (l : Fin 16), e5 (ix5 u r l h d) = nbr (e4 (ix4 u r h d)) l)
    (y : S1x64x8x64.Idx) :
    Cert.KernelIdeal.Value.E4 (F := Ideal) x0 x1 x3 x2 y = attend Q K W G (e4 y) := by
  obtain ⟨u, r, h, d, rfl⟩ : ∃ (u : Fin 1) (r : Fin 64) (h : Fin 8) (d : Fin 64), y = ix4 u r h d :=
    ⟨y 0, y 1, y 2, y 3, eq_ix4 y⟩
  rw [Cert.KernelIdeal.BlockValue.stored_at]
  unfold attend
  simp only [hx0, hx1, hx2, hx3, he]

/-! ## The windows' placements over the grid -/

variable (m : (ℓ : Loc nD τ sig) → Buf (Elt Ideal) ℓ) (ρ : Dev nD → PrngReg)

theorem zero4 : (![0, 0, 0, 0] : Fin 4 → Nat) = fun _ => 0 := funext fun a => by fin_cases a <;> rfl
theorem zero5 : (![0, 0, 0, 0, 0] : Fin 5 → Nat) = fun _ => 0 := funext fun a => by fin_cases a <;> rfl

/-- What the body leaves in the output's buffer, from the four input blocks in window order (query, keys, values,
    geometry), is the stored term of the loads — whole blocks, read from offset zero — with the geometry block before the
    value block, the order in which the body loads them. -/
theorem body_eq (x0 : Vec Ideal S1x64x8x64 .f32) (x1 x2 x3 : Vec Ideal S1x64x16x8x64 .f32) (y : S1x64x8x64.Idx) :
    out0_4 x0 x1 x2 x3 y = Cert.KernelIdeal.Value.E4 (F := Ideal) x0 x1 x3 x2 y := by
  unfold out0_4
  simp only [View.ld_unit_zero (S := S1x64x8x64) zero4, View.ld_unit_zero (S := S1x64x16x8x64) zero5]
  exact Cert.KernelIdeal.Value.canon4_eq x0 x1 x3 x2 y

/-- The printed index maps, decided over the 128 grid points: the output's block index is (batch, token block, 0, 0)
    within the array, and every input window's block index agrees with it on the batch and token-block axes and is 0 on
    its other axes. -/
theorem index_facts : ∀ t : Fin cfg0.N,
    win0_4.index t (2 : Fin 4) = 0 ∧ win0_4.index t (3 : Fin 4) = 0
    ∧ win0_4.index t (0 : Fin 4) ≤ 1 ∧ win0_4.index t (1 : Fin 4) ≤ 63
    ∧ win0_0.index t (0 : Fin 4) = win0_4.index t (0 : Fin 4) ∧ win0_0.index t (1 : Fin 4) = win0_4.index t (1 : Fin 4)
    ∧ win0_0.index t (2 : Fin 4) = 0 ∧ win0_0.index t (3 : Fin 4) = 0
    ∧ win0_1.index t (0 : Fin 5) = win0_4.index t (0 : Fin 4) ∧ win0_1.index t (1 : Fin 5) = win0_4.index t (1 : Fin 4)
    ∧ win0_1.index t (2 : Fin 5) = 0 ∧ win0_1.index t (3 : Fin 5) = 0 ∧ win0_1.index t (4 : Fin 5) = 0
    ∧ win0_2.index t (0 : Fin 5) = win0_4.index t (0 : Fin 4) ∧ win0_2.index t (1 : Fin 5) = win0_4.index t (1 : Fin 4)
    ∧ win0_2.index t (2 : Fin 5) = 0 ∧ win0_2.index t (3 : Fin 5) = 0 ∧ win0_2.index t (4 : Fin 5) = 0
    ∧ win0_3.index t (0 : Fin 5) = win0_4.index t (0 : Fin 4) ∧ win0_3.index t (1 : Fin 5) = win0_4.index t (1 : Fin 4)
    ∧ win0_3.index t (2 : Fin 5) = 0 ∧ win0_3.index t (3 : Fin 5) = 0 ∧ win0_3.index t (4 : Fin 5) = 0 :=
  (by decide +kernel : ∀ t : Fin grid0.N, _)

/-- Every (batch, token block) is some grid point's. -/
theorem index_onto : ∀ (q0 : Fin 2) (q1 : Fin 64), ∃ t : Fin cfg0.N, win0_4.index t = ![q0.val, q1.val, 0, 0] :=
  (by decide +kernel : ∀ (q0 : Fin 2) (q1 : Fin 64), ∃ t : Fin grid0.N, win0_4.index t = ![q0.val, q1.val, 0, 0])

/-! ## What a point writes back -/

/-- WHAT POINT `t` WRITES BACK is block `t` of `attend` of the argument arrays as the region finds them. -/
theorem flushed_eq (c : Dev nD) (t : Fin cfg0.N) :
    (dats m 0 c).flushed 4 t = ((cfg0.win 4).blk t).view.read (Elt Ideal)
      (attend (A := 2) (B := 4096) (C := 8) (D := 64) (V m c main_arg0) (V m c main_arg1) (V m c main_arg2) (V m c main_arg3)) := by
  rw [Cert.KernelIdeal.Value.flushed4]
  obtain ⟨o2, o3, o0, o1, a0, a1, a2, a3, k0, k1, k2, k3, k4, v0, v1, v2, v3, v4, g0, g1, g2, g3, g4⟩ := index_facts t
  funext y
  show out0_4 (iblk m c 0 t) (iblk m c 1 t) (iblk m c 2 t) (iblk m c 3 t) y
    = attend (A := 2) (B := 4096) (C := 8) (D := 64) (V m c main_arg0) (V m c main_arg1) (V m c main_arg2) (V m c main_arg3)
        (((cfg0.win 4).blk t).view.emb y)
  refine (body_eq (iblk m c 0 t) (iblk m c 1 t) (iblk m c 2 t) (iblk m c 3 t) y).trans ?_
  refine block_is_attend (V m c main_arg0) (V m c main_arg1) (V m c main_arg2) (V m c main_arg3)
    (iblk m c 0 t) (iblk m c 1 t) (iblk m c 2 t) (iblk m c 3 t)
    (((cfg0.win 4).blk t).view.emb) (((cfg0.win 1).blk t).view.emb) ?_ ?_ ?_ ?_ ?_ y
  · intro y
    show V m c main_arg0 (((cfg0.win 0).blk t).view.emb y) = V m c main_arg0 (((cfg0.win 4).blk t).view.emb y)
    have e : ((cfg0.win 0).blk t).view.emb y = ((cfg0.win 4).blk t).view.emb y := by
      funext a; apply Fin.ext
      match a with
      | ⟨0, _⟩ => show win0_0.index t (0 : Fin 4) * 1 + 1 * (y 0).val = win0_4.index t (0 : Fin 4) * 1 + 1 * (y 0).val; omega
      | ⟨1, _⟩ => show win0_0.index t (1 : Fin 4) * 64 + 1 * (y 1).val = win0_4.index t (1 : Fin 4) * 64 + 1 * (y 1).val; omega
      | ⟨2, _⟩ => show win0_0.index t (2 : Fin 4) * 8 + 1 * (y 2).val = win0_4.index t (2 : Fin 4) * 8 + 1 * (y 2).val; omega
      | ⟨3, _⟩ => show win0_0.index t (3 : Fin 4) * 64 + 1 * (y 3).val = win0_4.index t (3 : Fin 4) * 64 + 1 * (y 3).val; omega
    rw [e]
  · intro z
    rfl
  · intro z
    show V m c main_arg2 (((cfg0.win 2).blk t).view.emb z) = V m c main_arg2 (((cfg0.win 1).blk t).view.emb z)
    have e : ((cfg0.win 2).blk t).view.emb z = ((cfg0.win 1).blk t).view.emb z := by
      funext a; apply Fin.ext
      match a with
      | ⟨0, _⟩ => show win0_2.index t (0 : Fin 5) * 1 + 1 * (z 0).val = win0_1.index t (0 : Fin 5) * 1 + 1 * (z 0).val; omega
      | ⟨1, _⟩ => show win0_2.index t (1 : Fin 5) * 64 + 1 * (z 1).val = win0_1.index t (1 : Fin 5) * 64 + 1 * (z 1).val; omega
      | ⟨2, _⟩ => show win0_2.index t (2 : Fin 5) * 16 + 1 * (z 2).val = win0_1.index t (2 : Fin 5) * 16 + 1 * (z 2).val; omega
      | ⟨3, _⟩ => show win0_2.index t (3 : Fin 5) * 8 + 1 * (z 3).val = win0_1.index t (3 : Fin 5) * 8 + 1 * (z 3).val; omega
      | ⟨4, _⟩ => show win0_2.index t (4 : Fin 5) * 64 + 1 * (z 4).val = win0_1.index t (4 : Fin 5) * 64 + 1 * (z 4).val; omega
    rw [e]
  · intro z
    show V m c main_arg3 (((cfg0.win 3).blk t).view.emb z) = V m c main_arg3 (((cfg0.win 1).blk t).view.emb z)
    have e : ((cfg0.win 3).blk t).view.emb z = ((cfg0.win 1).blk t).view.emb z := by
      funext a; apply Fin.ext
      match a with
      | ⟨0, _⟩ => show win0_3.index t (0 : Fin 5) * 1 + 1 * (z 0).val = win0_1.index t (0 : Fin 5) * 1 + 1 * (z 0).val; omega
      | ⟨1, _⟩ => show win0_3.index t (1 : Fin 5) * 64 + 1 * (z 1).val = win0_1.index t (1 : Fin 5) * 64 + 1 * (z 1).val; omega
      | ⟨2, _⟩ => show win0_3.index t (2 : Fin 5) * 16 + 1 * (z 2).val = win0_1.index t (2 : Fin 5) * 16 + 1 * (z 2).val; omega
      | ⟨3, _⟩ => show win0_3.index t (3 : Fin 5) * 8 + 1 * (z 3).val = win0_1.index t (3 : Fin 5) * 8 + 1 * (z 3).val; omega
      | ⟨4, _⟩ => show win0_3.index t (4 : Fin 5) * 64 + 1 * (z 4).val = win0_1.index t (4 : Fin 5) * 64 + 1 * (z 4).val; omega
    rw [e]
  · intro u r h d l
    funext a; apply Fin.ext
    match a with
    | ⟨0, _⟩ => show win0_1.index t (0 : Fin 5) * 1 + 1 * u.val = win0_4.index t (0 : Fin 4) * 1 + 1 * u.val; omega
    | ⟨1, _⟩ => show win0_1.index t (1 : Fin 5) * 64 + 1 * r.val = win0_4.index t (1 : Fin 4) * 64 + 1 * r.val; omega
    | ⟨2, _⟩ => show win0_1.index t (2 : Fin 5) * 16 + 1 * l.val = l.val; omega
    | ⟨3, _⟩ => show win0_1.index t (3 : Fin 5) * 8 + 1 * h.val = win0_4.index t (2 : Fin 4) * 8 + 1 * h.val; omega
    | ⟨4, _⟩ => show win0_1.index t (4 : Fin 5) * 64 + 1 * d.val = win0_4.index t (3 : Fin 4) * 64 + 1 * d.val; omega

/-! ## The blocks tile the array -/

/-- An index of the array is in point `t`'s block iff each coordinate is in the block's range on its axis. -/
theorem mem_blk (t : Fin cfg0.N) (i : S2x4096x8x64.Idx) :
    i ∈ ((cfg0.win 4).blk t).view.set ↔ ∀ a : Fin 4, win0_4.index t a * S1x64x8x64.size a ≤ (i a).val
      ∧ (i a).val < win0_4.index t a * S1x64x8x64.size a + S1x64x8x64.size a := by
  show i ∈ ((View.whole main_v0).slice (win0_4.rect t)).set ↔ _
  rw [View.set_slice_whole, Rect.mem_set_unit]
  exact Iff.rfl

/-- Every index of the result array is in the block of the point at its batch and its token's block of 64. -/
theorem cover (i : S2x4096x8x64.Idx) :
    ∃ t : Fin cfg0.N, (cfg0.win 4).flush t = true ∧ i ∈ ((cfg0.win 4).blk t).view.set := by
  have hi0 : (i 0).val < 2 := (i 0).isLt
  have hi1 : (i 1).val < 4096 := (i 1).isLt
  have hi2 : (i 2).val < 8 := (i 2).isLt
  have hi3 : (i 3).val < 64 := (i 3).isLt
  obtain ⟨t, ht⟩ := index_onto ⟨(i 0).val, hi0⟩ ⟨(i 1).val / 64, by omega⟩
  have q0 : win0_4.index t (0 : Fin 4) = (i 0).val := congrFun ht 0
  have q1 : win0_4.index t (1 : Fin 4) = (i 1).val / 64 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 64 ≤ (i 1).val ∧ (i 1).val < win0_4.index t (1 : Fin 4) * 64 + 64; omega
  | ⟨2, _⟩ => show win0_4.index t (2 : Fin 4) * 8 ≤ (i 2).val ∧ (i 2).val < win0_4.index t (2 : Fin 4) * 8 + 8; omega
  | ⟨3, _⟩ => show win0_4.index t (3 : Fin 4) * 64 ≤ (i 3).val ∧ (i 3).val < win0_4.index t (3 : Fin 4) * 64 + 64; omega

/-! ## The array after the run, and the run -/

/-- THE RESULT ARRAY after the run is `attend` of the four argument arrays. -/
theorem final (c : Dev nD) :
    (dats m 0 c).arrAt 4 cfg0.N
      = attend (A := 2) (B := 4096) (C := 8) (D := 64) (m ((c : Thread nD τ).loc main_arg0)) (m ((c : Thread nD τ).loc main_arg1))
          (m ((c : Thread nD τ).loc main_arg2)) (m ((c : Thread nD τ).loc main_arg3)) :=
  (dats m 0 c).arrAt_eq_of_cover 4 _ (fun t _ => flushed_eq m c t) cover

/-- The kernel's run with its result named: every weakly fair execution terminates with the result array at `attend` of
    the argument arrays and the arguments unchanged. -/
theorem run : θ_run defs (onTc (τ := τ) (main (F := Ideal))) ⟨m, fun _ => 0, ρ⟩ fun r => ∀ c : Dev nD,
      r.2.mem ((c : Thread nD τ).loc main_v0)
        = attend (A := 2) (B := 4096) (C := 8) (D := 64) (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.ArrayValue

end
-- ==== Proof.ReferenceValue.lean ====
/-
  The reference program, stage by stage, is the specification.

  The reference builds its result on the whole [2, 4096, 16, 8, 64] arrays: it sets the query beside each of a token's
  sixteen neighbours (two broadcasts: a unit axis, then its sixteen copies), forms the scores, takes their maximum over
  the neighbour axis (and then the maximum of that with −∞ once more, which changes nothing), subtracts it,
  exponentiates, sums over the neighbour axis, divides, multiplies by the values and sums again. Each stage is read here
  at an index given by its coordinates (b, n, l, h, d) or (b, n, h, d):

    stage 7  (the scores)                  is  `score`  of the entries at the index,
    stage 10 (the maximum)                 is  `peak`,
    stage 14 (the exponentials)            is  `weight`,
    stage 15 (their sum, started from 0)   is  `mass`,
    stage 20 (the result)                  is  `mix`,

  so the reference's result array is `attend` of the four argument arrays. The sums over the neighbour axis come as
  sums over `Fin 16` from the stages' own reading lemmas; the maximum is a fold of `max` over the inserted coordinate.
-/
import proofs.«143512_j37855841747280_2_alg».proof.Proof.Gen.ReferenceIdeal.Read
import proofs.«143512_j37855841747280_2_alg».proof.Proof.NeighbourAttention
import proofs.«143512_j37855841747280_2_alg».proof.Proof.LibKeepdimsAxis1
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read
open Idealize.ShloMosaic Idealize.ShloMosaic.ValueIdx Cert.NeighbourAttention

variable (x0 : (⟨S2x4096x8x64, .f32⟩ : BufTy).Contents (Elt Ideal))
variable (x1 x2 x3 : (⟨S2x4096x16x8x64, .f32⟩ : BufTy).Contents (Elt Ideal))
variable (b : Fin 2) (n : Fin 4096) (h : Fin 8) (d : Fin 64)

/-- The query set beside neighbour `l` (first copy) is the query's entry at the token. -/
theorem query_at (l : Fin 16) : val_main_v1 (F := Ideal) x0 (ix5 b n l h d) = x0 (ix4 b n h d) := by
  rw [val_main_v1_apply, val_main_v0_apply]
  exact congrArg x0 (funext fun c => match c with | ⟨0, _⟩ => rfl | ⟨1, _⟩ => rfl | ⟨2, _⟩ => rfl | ⟨3, _⟩ => rfl)

/-- The query set beside neighbour `l` (second copy) likewise. -/
theorem query_at' (l : Fin 16) : val_main_v3 (F := Ideal) x0 (ix5 b n l h d) = x0 (ix4 b n h d) := by
  rw [val_main_v3_apply, val_main_v0_apply]
  exact congrArg x0 (funext fun c => match c with | ⟨0, _⟩ => rfl | ⟨1, _⟩ => rfl | ⟨2, _⟩ => rfl | ⟨3, _⟩ => rfl)

/-- Stage 7 at (b, n, l, h, d) is the score of neighbour `l`. -/
theorem score_at (l : Fin 16) :
    val_main_v7 (F := Ideal) x0 x1 x3 (ix5 b n l h d)
      = score (x0 (ix4 b n h d)) (fun l => x1 (ix5 b n l h d)) (fun l => x3 (ix5 b n l h d)) l := by
  rw [val_main_v7_apply, val_main_v5_apply, val_main_v2_apply, val_main_v4_apply, query_at, query_at', val_main_v6_apply]
  rfl

/-- Stage 8 at (b, n, h, d): the fold of `max`, from −∞, of the sixteen scores. -/
theorem rawPeak_at :
    val_main_v8 (F := Ideal) x0 x1 x3 (ix4 b n h d)
      = peak (x0 (ix4 b n h d)) (fun l => x1 (ix5 b n l h d)) (fun l => x3 (ix5 b n l h d)) := by
  have hr : S2x4096x16x8x64.Reduces [2] S2x4096x8x64 := by decide
  unfold val_main_v8
  refine (Cert.LibKeepdimsAxis1.hostMaxAxis2_apply (val_main_v7 (F := Ideal) x0 x1 x3) (val_main_cst_0 (F := Ideal))
    reducesTo_S2x4096x16x8x64_S2x4096x8x64_d2 hr h_S_ b n h d).trans ?_
  unfold peak
  exact congrArg (fun f => (Finset.univ : Finset (Fin 16)).fold max (Ideal.ofBits .f32 0xFF800000#32) f)
    (funext fun l => score_at x0 x1 x3 b n h d l)

/-- Stage 10 at (b, n, h, d): the maximum of −∞ with that fold, which is the fold. -/
theorem peak_at :
    val_main_v10 (F := Ideal) x0 x1 x3 (ix4 b n h d)
      = peak (x0 (ix4 b n h d)) (fun l => x1 (ix5 b n l h d)) (fun l => x3 (ix5 b n l h d)) := by
  rw [val_main_v10_apply, val_main_v9_apply, val_main_cst_1_apply, rawPeak_at]
  exact max_start_fold _ _ _

/-- Stage 14 at (b, n, l, h, d) is the weight of neighbour `l`. -/
theorem weight_at (l : Fin 16) :
    val_main_v14 (F := Ideal) x0 x1 x3 (ix5 b n l h d)
      = weight (x0 (ix4 b n h d)) (fun l => x1 (ix5 b n l h d)) (fun l => x3 (ix5 b n l h d)) l := by
  have e : idx_main_v11 (idx_main_v12 (ix5 b n l h d)) = ix4 b n h d :=
    funext fun c => match c with | ⟨0, _⟩ => rfl | ⟨1, _⟩ => rfl | ⟨2, _⟩ => rfl | ⟨3, _⟩ => rfl
  rw [val_main_v14_apply, val_main_v13_apply, val_main_v12_apply, val_main_v11_apply, e, peak_at, score_at]
  rfl

/-- Stage 15 at (b, n, h, d) is the sum of the sixteen weights. -/
theorem mass_at :
    val_main_v15 (F := Ideal) x0 x1 x3 (ix4 b n h d)
      = mass (x0 (ix4 b n h d)) (fun l => x1 (ix5 b n l h d)) (fun l => x3 (ix5 b n l h d)) := by
  rw [val_main_v15_apply, val_main_cst_2_apply]
  show Ideal.ofBits .f32 0x00000000#32 + _ = _
  rw [Ideal.ofBits_zero_f32, zero_add]
  unfold mass
  refine Finset.sum_congr rfl fun l _ => ?_
  have e : idx_main_v15 (ix4 b n h d) l = ix5 b n l h d :=
    funext fun c => match c with | ⟨0, _⟩ => rfl | ⟨1, _⟩ => rfl | ⟨2, _⟩ => rfl | ⟨3, _⟩ => rfl | ⟨4, _⟩ => rfl
  rw [e]
  exact weight_at x0 x1 x3 b n h d l

/-- Stage 19 at (b, n, l, h, d): the normalised weight of neighbour `l` times its value. -/
theorem term_at (l : Fin 16) :
    val_main_v19 (F := Ideal) x0 x1 x2 x3 (ix5 b n l h d)
      = Ideal.div (weight (x0 (ix4 b n h d)) (fun l => x1 (ix5 b n l h d)) (fun l => x3 (ix5 b n l h d)) l)
          (mass (x0 (ix4 b n h d)) (fun l => x1 (ix5 b n l h d)) (fun l => x3 (ix5 b n l h d))) * x2 (ix5 b n l h d) := by
  have e : idx_main_v16 (idx_main_v17 (ix5 b n l h d)) = ix4 b n h d :=
    funext fun c => match c with | ⟨0, _⟩ => rfl | ⟨1, _⟩ => rfl | ⟨2, _⟩ => rfl | ⟨3, _⟩ => rfl
  rw [val_main_v19_apply, val_main_v18_apply, val_main_v17_apply, val_main_v16_apply, e, mass_at, weight_at]
  rfl

/-- Stage 20, the result, at (b, n, h, d) is the mix of the sixteen neighbours' values. -/
theorem result_at :
    val_main_v20 (F := Ideal) x0 x1 x2 x3 (ix4 b n h d)
      = mix (x0 (ix4 b n h d)) (fun l => x1 (ix5 b n l h d)) (fun l => x3 (ix5 b n l h d)) (fun l => x2 (ix5 b n l h d)) := by
  rw [val_main_v20_apply, val_main_cst_3_apply]
  show Ideal.ofBits .f32 0x00000000#32 + _ = _
  rw [Ideal.ofBits_zero_f32, zero_add]
  unfold mix
  refine Finset.sum_congr rfl fun l _ => ?_
  have e : idx_main_v20 (ix4 b n h d) l = ix5 b n l h d :=
    funext fun c => match c with | ⟨0, _⟩ => rfl | ⟨1, _⟩ => rfl | ⟨2, _⟩ => rfl | ⟨3, _⟩ => rfl | ⟨4, _⟩ => rfl
  rw [e]
  exact term_at x0 x1 x2 x3 b n h d l

/-- The reference's result array is `attend` of its four argument arrays. -/
theorem result_eq :
    val_main_v20 (F := Ideal) x0 x1 x2 x3 = attend (A := 2) (B := 4096) (C := 8) (D := 64) x0 x1 x2 x3 := by
  funext i
  obtain ⟨b, n, h, d, rfl⟩ : ∃ (b : Fin 2) (n : Fin 4096) (h : Fin 8) (d : Fin 64), i = ix4 b n h d :=
    ⟨i 0, i 1, i 2, i 3, eq_ix4 i⟩
  rw [attend_ix4]
  exact result_at x0 x1 x2 x3 b n h d

end Cert.ReferenceIdeal.RefValue

end
-- ==== Proof.lean ====
/-
  The kernel and its reference compute the same array on the extended reals.

  Both programs take a query q : [2, 4096, 8, 64] and, for each of a token's sixteen neighbours, keys, values and a
  geometry term : [2, 4096, 16, 8, 64]. At batch b, token n, head h, channel d, with q the query's entry and k_l, g_l,
  v_l the neighbours' entries, both compute

      s_l = (q·k_l + q·g_l)·(1/8),   M = max_l s_l,   e_l = exp (s_l − M),   Z = Σ_l e_l,   out = Σ_l (e_l / Z)·v_l

  (Proof/NeighbourAttention.lean: `mix`, and `attend` for the whole array). The reference does so on whole arrays, the
  sums and the maximum taken over the neighbour axis (Proof/ReferenceValue.lean reads its stages at an index; its one
  extra step, the maximum of −∞ with M, is M). The kernel does so block by block, 64 tokens of one batch at a grid point
  (Proof/BlockValue.lean reads a block's stages at an index; Proof/ArrayValue.lean places the 128 blocks in the array).
  The two are the same operations in the same order with the same constants, so no law of arithmetic is needed and the
  finiteness of the inputs is never used: the statement holds at every extended-real input.

  The frames of the two kernel programs are the generated ones; the reference's frame is its run with the result
  dropped; the idealization rewrote nothing, so there is nothing to preserve.
-/
import proofs.«143512_j37855841747280_2_alg».proof.Defs
import proofs.«143512_j37855841747280_2_alg».proof.Proof.Gen.Kernel
import proofs.«143512_j37855841747280_2_alg».proof.Proof.Gen.Kernel.Skeleton
import proofs.«143512_j37855841747280_2_alg».proof.Proof.Gen.Kernel.Launch
import proofs.«143512_j37855841747280_2_alg».proof.Proof.Gen.Kernel.Points
import proofs.«143512_j37855841747280_2_alg».proof.Proof.Gen.Kernel.Frame
import proofs.«143512_j37855841747280_2_alg».proof.Proof.Gen.KernelIdeal
import proofs.«143512_j37855841747280_2_alg».proof.Proof.Gen.KernelIdeal.Skeleton
import proofs.«143512_j37855841747280_2_alg».proof.Proof.Gen.KernelIdeal.Launch
import proofs.«143512_j37855841747280_2_alg».proof.Proof.Gen.KernelIdeal.Points
import proofs.«143512_j37855841747280_2_alg».proof.Proof.Gen.KernelIdeal.Frame
import proofs.«143512_j37855841747280_2_alg».proof.Proof.Gen.ReferenceIdeal
import proofs.«143512_j37855841747280_2_alg».proof.Proof.Gen.Pre_finite_inputs
import proofs.«143512_j37855841747280_2_alg».proof.Proof.Gen.KernelIdeal.Value
import proofs.«143512_j37855841747280_2_alg».proof.Proof.Gen.ReferenceIdeal.Run
import proofs.«143512_j37855841747280_2_alg».proof.Proof.Gen.ReferenceIdeal.Read
import proofs.«143512_j37855841747280_2_alg».proof.Proof.ArrayValue
import proofs.«143512_j37855841747280_2_alg».proof.Proof.ReferenceValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array ends at `attend` of its arguments (the blocks placed in the array)
    and the reference's at `attend` of its own (its stages read at an index); the arguments agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
